-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S32x32 .f32) (main_arg4 : FVec F S32 .f32) (main_arg5 : FVec F S32x32 .f32) (main_arg6 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x32 : Shape := ⟨2, ![5000, 32]⟩
abbrev S5000x1 : Shape := ⟨2, ![5000, 1]⟩
abbrev S1600000x32 : Shape := ⟨2, ![1600000, 32]⟩
abbrev S1x32 : Shape := ⟨2, ![1, 32]⟩

abbrev nBuf : Space → Nat
  | .hbm => 58
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x32, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S100000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S_, .f32⟩
  | .hbm, ⟨54, _⟩ => ⟨S100000x32, .f32⟩
  | .hbm, ⟨55, _⟩ => ⟨S1600000x1, .i32⟩
  | .hbm, ⟨56, _⟩ => ⟨S100000x32, .f32⟩
  | .hbm, ⟨57, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S32x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S32, .f32⟩
  | .local _ .vmem, ⟨12, _⟩ => ⟨S5000x1, .f32⟩
  | .local _ .vmem, ⟨13, _⟩ => ⟨S5000x1, .f32⟩
  | .local _ .vmem, ⟨14, _⟩ => ⟨S32x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S32, .f32⟩
  | .local _ .vmem, ⟨22, _⟩ => ⟨S5000x32, .f32⟩
  | .local _ .vmem, ⟨23, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  scatter_S100000_S1600000x1_S1600000_n_0_0_1_wf : ScatterDims.WF S100000 S1600000x1 S1600000 [] [0] [0] 1
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩

abbrev nBuf : Space → Nat
  | .hbm => 96
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x32, .f32⟩
  | .hbm, ⟨29, _⟩ => ⟨S100000x32, .f32⟩
  | .hbm, ⟨30, _⟩ => ⟨S100000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .f32⟩
  | .hbm, ⟨41, _⟩ => ⟨S100000x32, .f32⟩
  | .hbm, ⟨42, _⟩ => ⟨S1600000x1, .i32⟩
  | .hbm, ⟨43, _⟩ => ⟨S100000x32, .f32⟩
  | .hbm, ⟨44, _⟩ => ⟨S100000x1, .f32⟩
  | .hbm, ⟨45, _⟩ => ⟨S100000x32, .f32⟩
  | .hbm, ⟨46, _⟩ => ⟨S100000x32, .f32⟩
  | .hbm, ⟨47, _⟩ => ⟨S1x32, .f32⟩
  | .hbm, ⟨48, _⟩ => ⟨S100000x32, .f32⟩
  | .hbm, ⟨49, _⟩ => ⟨S100000x32, .f32⟩
  | .hbm, ⟨50, _⟩ => ⟨S_, .f32⟩
  | .hbm, ⟨51, _⟩ => ⟨S100000x32, .f32⟩
  | .hbm, ⟨52, _⟩ => ⟨S100000x32, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x32, .f32⟩
  | .hbm, ⟨75, _⟩ => ⟨S100000x32, .f32⟩
  | .hbm, ⟨76, _⟩ => ⟨S100000x32, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x32, .f32⟩
  | .hbm, ⟨86, _⟩ => ⟨S_, .f32⟩
  | .hbm, ⟨87, _⟩ => ⟨S100000x32, .f32⟩
  | .hbm, ⟨88, _⟩ => ⟨S1600000x1, .i32⟩
  | .hbm, ⟨89, _⟩ => ⟨S100000x32, .f32⟩
  | .hbm, ⟨90, _⟩ => ⟨S100000x1, .f32⟩
  | .hbm, ⟨91, _⟩ => ⟨S100000x32, .f32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.NamedRun.lean ====
/-
  The idealized kernel's run with its result named.

  The program is five stretches of host operations, a launch, a stretch, a launch, a stretch, a launch. Its run is
  followed boundary by boundary: `W0` is the memory at the start, each stretch maps the contents before it to the
  contents after it, and each launch replaces its arrays by what its grid points wrote back. Every weakly fair
  execution terminates without a fault, and at the end every buffer that is not a kernel's private staging space
  holds the last boundary's contents `W10` — in particular the result buffer, which the frame statement leaves
  unnamed, and the seven argument arrays, which are what they were at the start.
-/
import proofs.«145511_j29506425324286_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as they were. -/
theorem run : θ_run defs (onTc (τ := τ) (main (F := F))) ⟨m, fun _ => 0, ρ⟩ (fun r => ∀ c : Dev nD,
      r.2.mem ((c.tc : Thread nD τ).loc main_v35) = W10 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v35 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Named

end
-- ==== Proof.Spec.lean ====
/-
  Two layers of graph convolution: the dense work of each layer as a function of whole arrays.

  A graph on 100000 nodes carries 32 features per node. One layer scales each node's feature row by the node's
  source norm (one number per node, kept as a column), multiplies by a 32 × 32 weight matrix, sums the rows along
  the edges (a gather followed by a scatter-add, which this file does not open), scales each summed row by the
  node's destination norm and adds a bias per feature. Between the two layers the negative entries are clipped to
  zero. The sum along the edges is the same operation in both programs compared, so only three dense steps are
  spelled out here, entry by entry, on extended reals:

  * `scaledProduct x s W` at (p, q) is the sum over k of (x (p, k) · s (p, 0)) · W (k, q);
  * `scaledPlusBias a d b` at (p, q) is a (p, q) · d (p, 0) + b (q);
  * `clippedScaledProduct a d b s W` is `scaledProduct` of the clipped `scaledPlusBias a d b`.
-/
import Idealize.ShloMosaic.Lib.ValueIdx
import Idealize.ShloMosaic.PureOps.Ideal

noncomputable section

namespace Cert.GraphConv

open Idealize.ShloMosaic Idealize.ShloMosaic.ValueIdx

/-- One row of 32 features per node. -/
abbrev Rows : Shape := ⟨2, ![100000, 32]⟩
/-- One number per node, as a column. -/
abbrev Column : Shape := ⟨2, ![100000, 1]⟩
/-- A 32 × 32 weight matrix. -/
abbrev Weights : Shape := ⟨2, ![32, 32]⟩
/-- One number per feature. -/
abbrev Features : Shape := ⟨1, ![32]⟩

/-- The zero the clipping compares with, as the float pattern both programs write. -/
abbrev zeroLit : EReal := Ideal.ofBits .f32 0x00000000#32

/-- Each row of `x` scaled by its node's number in `s`, then multiplied by `W`. -/
def scaledProduct (x : Rows.Idx → EReal) (s : Column.Idx → EReal) (W : Weights.Idx → EReal) : Rows.Idx → EReal :=
  fun i => ∑ k : Fin 32, (x (ix2 (i 0) k) * s (ix2 (i 0) (0 : Fin 1))) * W (ix2 k (i 1))

/-- Each row of `a` scaled by its node's number in `d`, plus the bias `b` of each feature. -/
def scaledPlusBias (a : Rows.Idx → EReal) (d : Column.Idx → EReal) (b : Features.Idx → EReal) : Rows.Idx → EReal :=
  fun i => a i * d (ix2 (i 0) (0 : Fin 1)) + b (ix1 (i 1))

/-- The first layer's closing step, clipped below at zero, followed by the second layer's opening step. -/
def clippedScaledProduct (a : Rows.Idx → EReal) (d : Column.Idx → EReal) (b : Features.Idx → EReal)
    (s : Column.Idx → EReal) (W : Weights.Idx → EReal) : Rows.Idx → EReal :=
  fun i => ∑ k : Fin 32,
    (max (a (ix2 (i 0) k) * d (ix2 (i 0) (0 : Fin 1)) + b (ix1 k)) zeroLit * s (ix2 (i 0) (0 : Fin 1))) * W (ix2 k (i 1))

end Cert.GraphConv

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.Bodies.lean ====
/-
  The three kernel bodies, entry by entry.

  Each body loads a block of 5000 node rows (with the matching 5000 entries of a norm column, a bias and a weight
  matrix where it has them), computes, and stores a block of 5000 result rows. What it stores at row p, feature q
  of the block is, on extended reals (where a change of float format is the identity and the matrix unit's product
  into zeros is a plain sum of 32 products):
  * opening step:  the sum over k of (x (p, k) · s (p, 0)) · W (k, q);
  * middle step:   the sum over k of (max (a (p, k) · d (p, 0) + b (k)) 0 · s (p, 0)) · W (k, q);
  * closing step:  a (p, q) · d (p, 0) + b (q).
-/
import proofs.«145511_j29506425324286_1_alg».proof.Proof.Gen.KernelIdeal.Skeleton
import proofs.«145511_j29506425324286_1_alg».proof.Proof.Spec
import proofs.«145511_j29506425324286_1_alg».proof.Proof.LibMatmulPlain
import proofs.«145511_j29506425324286_1_alg».proof.Proof.LibKeepdims
import Idealize.ShloMosaic.Lib.ValueLayout
import Idealize.ShloMosaic.Lib.Pipeline.Value

noncomputable section

namespace Cert.KernelIdeal.Bodies

open Cert.KernelIdeal Cert.KernelIdeal.Gen Idealize.ShloMosaic Idealize.ShloMosaic.TcCoe
open Idealize.ShloMosaic.ValueIdx Cert.GraphConv Cert.Lib.Keepdims

/-- A block's column of norms spread over the 32 features reads, at (p, k), the column's entry p. -/
theorem column_spread (s : Vec Ideal S5000x1 .f32) (p : Fin 5000) (k : Fin 32) :
    broadcastTo S5000x32 (shapeCast S5000x1 s shapeCasts_S5000x1_S5000x1) broadcasts_S5000x1_S5000x32 (ix2 p k)
      = s (ix2 p (0 : Fin 1)) := by
  rw [broadcastTo_a1_ab_apply, shapeCast_self]

/-- The bias spread over a block's 5000 rows reads, at (p, k), the bias of feature k. -/
theorem bias_spread (b : Vec Ideal S32 .f32) (p : Fin 5000) (k : Fin 32) :
    broadcastTo S5000x32 (shapeCast S1x32 b shapeCasts_S32_S1x32) broadcasts_S1x32_S5000x32 (ix2 p k) = b (ix1 k) := by
  rw [broadcastTo_1b_ab_apply, shapeCast_a_1a_apply]

/-- The opening step's stored block, at row p and feature q. -/
theorem opening_apply (x : Vec Ideal S5000x32 .f32) (s : Vec Ideal S5000x1 .f32) (W : Vec Ideal S32x32 .f32)
    (p : Fin 5000) (q : Fin 32) :
    k0_pay1 (F := Ideal) x s W (ix2 p q) = ∑ k : Fin 32, (x (ix2 p k) * s (ix2 p (0 : Fin 1))) * W (ix2 k q) := by
  unfold k0_pay1
  refine (Cert.Lib.MatmulPlain.matmul_zero_apply _ none _ _ p q).trans ?_
  refine Finset.sum_congr rfl fun k _ => ?_
  exact congrArg (fun z => (x (ix2 p k) * z) * W (ix2 k q)) (column_spread s p k)

/-- The middle step's stored block, at row p and feature q. -/
theorem middle_apply (a : Vec Ideal S5000x32 .f32) (d : Vec Ideal S5000x1 .f32) (b : Vec Ideal S32 .f32)
    (s : Vec Ideal S5000x1 .f32) (W : Vec Ideal S32x32 .f32) (p : Fin 5000) (q : Fin 32) :
    k1_pay1 (F := Ideal) a d b s W (ix2 p q)
      = ∑ k : Fin 32, (max (a (ix2 p k) * d (ix2 p (0 : Fin 1)) + b (ix1 k)) zeroLit * s (ix2 p (0 : Fin 1))) * W (ix2 k q) := by
  unfold k1_pay1
  refine (Cert.Lib.MatmulPlain.matmul_zero_apply _ none _ _ p q).trans ?_
  refine Finset.sum_congr rfl fun k _ => ?_
  show (max (shapeCast S5000x32 a shapeCasts_S5000x32_S5000x32 (ix2 p k)
        * broadcastTo S5000x32 (shapeCast S5000x1 d shapeCasts_S5000x1_S5000x1) broadcasts_S5000x1_S5000x32 (ix2 p k)
        + broadcastTo S5000x32 (shapeCast S1x32 b shapeCasts_S32_S1x32) broadcasts_S1x32_S5000x32 (ix2 p k)) zeroLit
      * broadcastTo S5000x32 (shapeCast S5000x1 s shapeCasts_S5000x1_S5000x1) broadcasts_S5000x1_S5000x32 (ix2 p k)) * W (ix2 k q) = _
  rw [column_spread d p k, column_spread s p k, bias_spread b p k, shapeCast_self]

/-- The closing step's stored block, at row p and feature q. -/
theorem closing_apply (a : Vec Ideal S5000x32 .f32) (d : Vec Ideal S5000x1 .f32) (b : Vec Ideal S32 .f32)
    (p : Fin 5000) (q : Fin 32) :
    k2_pay1 (F := Ideal) a d b (ix2 p q) = a (ix2 p q) * d (ix2 p (0 : Fin 1)) + b (ix1 q) := by
  unfold k2_pay1
  show shapeCast S5000x32 a shapeCasts_S5000x32_S5000x32 (ix2 p q)
        * broadcastTo S5000x32 (shapeCast S5000x1 d shapeCasts_S5000x1_S5000x1) broadcasts_S5000x1_S5000x32 (ix2 p q)
        + broadcastTo S5000x32 (shapeCast S1x32 b shapeCasts_S32_S1x32) broadcasts_S1x32_S5000x32 (ix2 p q) = _
  rw [column_spread d p q, bias_spread b p q, shapeCast_self]

/-! ## A stored block as a block of the whole-array function

When a block's loaded pieces are the whole arrays read at the block's place — row p of the block is node row `i 0`,
feature q is feature `i 1` — the stored entry is the whole-array function's entry at `i`. -/

/-- The opening step. -/
theorem opening_of_reads (xb : Vec Ideal S5000x32 .f32) (sb : Vec Ideal S5000x1 .f32) (wb : Vec Ideal S32x32 .f32)
    (x : Rows.Idx → EReal) (s : Column.Idx → EReal) (W : Weights.Idx → EReal) (i : Rows.Idx) (p : Fin 5000) (q : Fin 32)
    (hx : ∀ k : Fin 32, xb (ix2 p k) = x (ix2 (i 0) k)) (hs : sb (ix2 p (0 : Fin 1)) = s (ix2 (i 0) (0 : Fin 1)))
    (hw : ∀ k : Fin 32, wb (ix2 k q) = W (ix2 k (i 1))) :
    k0_pay1 (F := Ideal) xb sb wb (ix2 p q) = scaledProduct x s W i := by
  rw [opening_apply]
  unfold scaledProduct
  exact Finset.sum_congr rfl fun k _ => by rw [hx k, hs, hw k]

/-- The middle step. -/
theorem middle_of_reads (ab : Vec Ideal S5000x32 .f32) (db : Vec Ideal S5000x1 .f32) (bb : Vec Ideal S32 .f32)
    (sb : Vec Ideal S5000x1 .f32) (wb : Vec Ideal S32x32 .f32)
    (a : Rows.Idx → EReal) (d : Column.Idx → EReal) (b : Features.Idx → EReal) (s : Column.Idx → EReal) (W : Weights.Idx → EReal)
    (i : Rows.Idx) (p : Fin 5000) (q : Fin 32)
    (ha : ∀ k : Fin 32, ab (ix2 p k) = a (ix2 (i 0) k)) (hd : db (ix2 p (0 : Fin 1)) = d (ix2 (i 0) (0 : Fin 1)))
    (hb : ∀ k : Fin 32, bb (ix1 k) = b (ix1 k)) (hs : sb (ix2 p (0 : Fin 1)) = s (ix2 (i 0) (0 : Fin 1)))
    (hw : ∀ k : Fin 32, wb (ix2 k q) = W (ix2 k (i 1))) :
    k1_pay1 (F := Ideal) ab db bb sb wb (ix2 p q) = clippedScaledProduct a d b s W i := by
  rw [middle_apply]
  unfold clippedScaledProduct
  exact Finset.sum_congr rfl fun k _ => by rw [ha k, hd, hb k, hs, hw k]

/-- The closing step. -/
theorem closing_of_reads (ab : Vec Ideal S5000x32 .f32) (db : Vec Ideal S5000x1 .f32) (bb : Vec Ideal S32 .f32)
    (a : Rows.Idx → EReal) (d : Column.Idx → EReal) (b : Features.Idx → EReal) (i : Rows.Idx) (p : Fin 5000) (q : Fin 32)
    (ha : ab (ix2 p q) = a i) (hd : db (ix2 p (0 : Fin 1)) = d (ix2 (i 0) (0 : Fin 1))) (hb : bb (ix1 q) = b (ix1 (i 1))) :
    k2_pay1 (F := Ideal) ab db bb (ix2 p q) = scaledPlusBias a d b i := by
  rw [closing_apply]
  unfold scaledPlusBias
  rw [ha, hd, hb]

end Cert.KernelIdeal.Bodies

end
-- ==== Proof.OpeningArray.lean ====
/-
  The opening step's array: what the first launch leaves in its result array.

  The launch walks 20 grid points; point t works on node rows 5000·t … 5000·t + 4999: it reads those rows of the
  feature array and of the norm column, the whole weight matrix, and writes those rows of the result. Every node row
  lies in exactly one such block (row r in block r / 5000), and by the body's entry-by-entry description the block
  written at point t is the matching block of `scaledProduct` of the three whole arrays. So after the launch the
  result array IS `scaledProduct` of the arrays the launch found.
-/
import proofs.«145511_j29506425324286_1_alg».proof.Proof.Gen.KernelIdeal.Frame
import proofs.«145511_j29506425324286_1_alg».proof.Proof.Bodies
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at point `t`: the row blocks at block-row `t`, the weights at the origin. -/
theorem opening_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block-row below 20 is some point's. -/
theorem opening_onto : ∀ q0 : Fin 20, ∃ t : Fin cfg0.N, win0_3.index t = ![q0.val, 0] :=
  (by decide +kernel : ∀ q0 : Fin 20, ∃ t : Fin grid0.N, win0_3.index t = ![q0.val, 0])

/-- What point `t` writes back is block `t` of `scaledProduct` of the arrays the launch found. -/
theorem opening_block (c : Dev nD) (t : Fin cfg0.N) :
    (dat0 V c).flushed 3 t = ((cfg0.win 3).blk t).view.read (Elt Ideal)
      (scaledProduct (V c main_arg0) (V c main_v11) (V c main_arg3)) := by
  show (cfg0.win 3).cut (grid0.coords t) ((dat0 V c).after 3 t) = _
  rw [after0_3]
  unfold out0_3
  rw [View.canon_unit_zero zeros2]
  simp only [View.ld_unit_zero (S := S5000x32) zeros2, View.ld_unit_zero (S := S5000x1) zeros2, View.ld_unit_zero (S := S32x32) zeros2]
  obtain ⟨e0, e1, e2, e3, e4, e5, e6, e7⟩ := opening_maps t
  funext j
  obtain ⟨p, q, rfl⟩ : ∃ (p : Fin 5000) (q : Fin 32), j = ix2 p q := ⟨j 0, j 1, eq_ix2 j⟩
  show k0_pay1 (iblk0 V c 0 t) (iblk0 V c 1 t) (iblk0 V c 2 t) (ix2 p q)
    = scaledProduct (V c main_arg0) (V c main_v11) (V c main_arg3) (((cfg0.win 3).blk t).view.emb (ix2 p q))
  have hx : ∀ k : Fin 32, iblk0 V c 0 t (ix2 p k) = V c main_arg0 (ix2 ((((cfg0.win 3).blk t).view.emb (ix2 p q)) 0) k) := by
    intro k
    show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 32 + 1 * k.val = k.val; omega
  have hs : iblk0 V c 1 t (ix2 p (0 : Fin 1)) = V c main_v11 (ix2 ((((cfg0.win 3).blk t).view.emb (ix2 p q)) 0) (0 : Fin 1)) := by
    show V c main_v11 (((cfg0.win 1).blk t).view.emb (ix2 p (0 : Fin 1))) = _
    refine congrArg _ (funext fun a => Fin.ext ?_)
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have hw : ∀ k : Fin 32, iblk0 V c 2 t (ix2 k q) = V c main_arg3 (ix2 k ((((cfg0.win 3).blk t).view.emb (ix2 p q)) 1)) := by
    intro k
    show V c main_arg3 (((cfg0.win 2).blk t).view.emb (ix2 k q)) = _
    refine congrArg _ (funext fun a => Fin.ext ?_)
    match a with
    | ⟨0, _⟩ => show win0_2.index t (0 : Fin 2) * 32 + 1 * k.val = k.val; omega
    | ⟨1, _⟩ => show win0_2.index t (1 : Fin 2) * 32 + 1 * q.val = win0_3.index t (1 : Fin 2) * 32 + 1 * q.val; omega
  exact Bodies.opening_of_reads (iblk0 V c 0 t) (iblk0 V c 1 t) (iblk0 V c 2 t) (V c main_arg0) (V c main_v11) (V c main_arg3)
    (((cfg0.win 3).blk t).view.emb (ix2 p q)) p q hx hs hw

/-- A node row is in point `t`'s block when each coordinate is in the block's range on its axis. -/
theorem opening_mem (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v13).slice (win0_3.rect t)).set ↔ _
  rw [View.set_slice_whole, Rect.mem_set_unit]
  exact Iff.rfl

/-- Every entry of the result array is in some point's block: row r in block r / 5000. -/
theorem opening_cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := opening_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [opening_mem]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- After the first launch its result array is `scaledProduct` of the arrays it found. -/
theorem opening_final (c : Dev nD) :
    (dat0 V c).arrAt 3 cfg0.N = scaledProduct (V c main_arg0) (V c main_v11) (V c main_arg3) :=
  (dat0 V c).arrAt_eq_of_cover 3 _ (fun t _ => opening_block V c t) opening_cover

end Cert.KernelIdeal.Arrays

end
-- ==== Proof.MiddleArray.lean ====
/-
  The middle step's array: what the second launch leaves in its result array.

  The launch walks 20 grid points; point t works on node rows 5000·t … 5000·t + 4999: it reads those rows of the
  summed-feature array and of the two norm columns (the destination norms, which close the first layer, and the
  source norms, which open the second), the whole bias and the whole weight matrix (both the same at every point),
  and writes those rows of the result. Every node row lies in exactly one such block (row r in block r / 5000), and
  by the body's entry-by-entry description the block written at point t is the matching block of
  `clippedScaledProduct` of the five whole arrays. So after the launch the result array IS `clippedScaledProduct` of
  the arrays the launch found.
-/
import proofs.«145511_j29506425324286_1_alg».proof.Proof.Gen.KernelIdeal.Frame
import proofs.«145511_j29506425324286_1_alg».proof.Proof.Bodies
import proofs.«145511_j29506425324286_1_alg».proof.Proof.OpeningArray
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

/-- The origin of a one-axis array. -/
private theorem zeros1 : (![0] : Fin 1 → Nat) = fun _ => 0 := funext fun a => by fin_cases a; rfl

/-- Where each window's block sits at point `t`: the row blocks at block-row `t`, the bias and the weights at the
    origin. -/
theorem middle_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block-row below 20 is some point's. -/
theorem middle_onto : ∀ q0 : Fin 20, ∃ t : Fin cfg1.N, win1_5.index t = ![q0.val, 0] :=
  (by decide +kernel : ∀ q0 : Fin 20, ∃ t : Fin grid1.N, win1_5.index t = ![q0.val, 0])

/-- What point `t` writes back is block `t` of `clippedScaledProduct` of the arrays the launch found. -/
theorem middle_block (c : Dev nD) (t : Fin cfg1.N) :
    (dat1 V c).flushed 5 t = ((cfg1.win 5).blk t).view.read (Elt Ideal)
      (clippedScaledProduct (V c main_v23) (V c main_v12) (V c main_arg4) (V c main_v11) (V c main_arg5)) := by
  show (cfg1.win 5).cut (grid1.coords t) ((dat1 V c).after 5 t) = _
  rw [after1_5]
  unfold out1_5
  rw [View.canon_unit_zero zeros2]
  simp only [View.ld_unit_zero (S := S5000x32) zeros2, View.ld_unit_zero (S := S5000x1) zeros2,
    View.ld_unit_zero (S := S32) zeros1, View.ld_unit_zero (S := S32x32) zeros2]
  obtain ⟨e0, e1, e2, e3, e4, e5, e6, e7, e8, e9, e10⟩ := middle_maps t
  funext j
  obtain ⟨p, q, rfl⟩ : ∃ (p : Fin 5000) (q : Fin 32), j = ix2 p q := ⟨j 0, j 1, eq_ix2 j⟩
  show k1_pay1 (iblk1 V c 0 t) (iblk1 V c 1 t) (iblk1 V c 2 t) (iblk1 V c 3 t) (iblk1 V c 4 t) (ix2 p q)
    = clippedScaledProduct (V c main_v23) (V c main_v12) (V c main_arg4) (V c main_v11) (V c main_arg5)
        (((cfg1.win 5).blk t).view.emb (ix2 p q))
  -- the summed rows' block holds the same node rows as the result's block, and all 32 features
  have ha : ∀ k : Fin 32, iblk1 V c 0 t (ix2 p k) = V c main_v23 (ix2 ((((cfg1.win 5).blk t).view.emb (ix2 p q)) 0) k) := by
    intro k
    show V c main_v23 (((cfg1.win 0).blk t).view.emb (ix2 p k)) = _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 32 + 1 * k.val = k.val; omega
  -- so do the two norm columns' blocks
  have hd : iblk1 V c 1 t (ix2 p (0 : Fin 1)) = V c main_v12 (ix2 ((((cfg1.win 5).blk t).view.emb (ix2 p q)) 0) (0 : Fin 1)) := by
    show V c main_v12 (((cfg1.win 1).blk t).view.emb (ix2 p (0 : Fin 1))) = _
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  -- the bias's block is the whole bias
  have hb : ∀ k : Fin 32, iblk1 V c 2 t (ix1 k) = V c main_arg4 (ix1 k) := by
    intro k
    show V c main_arg4 (((cfg1.win 2).blk t).view.emb (ix1 k)) = _
    refine congrArg _ (funext fun a => Fin.ext ?_)
    match a with
    | ⟨0, _⟩ => show win1_2.index t (0 : Fin 1) * 32 + 1 * k.val = k.val; omega
  have hs : iblk1 V c 3 t (ix2 p (0 : Fin 1)) = V c main_v11 (ix2 ((((cfg1.win 5).blk t).view.emb (ix2 p q)) 0) (0 : Fin 1)) := by
    show V c main_v11 (((cfg1.win 3).blk t).view.emb (ix2 p (0 : Fin 1))) = _
    refine congrArg _ (funext fun a => Fin.ext ?_)
    match a with
    | ⟨0, _⟩ => show win1_3.index t (0 : Fin 2) * 5000 + 1 * p.val = win1_5.index t (0 : Fin 2) * 5000 + 1 * p.val; omega
    | ⟨1, _⟩ => show win1_3.index t (1 : Fin 2) * 1 + 1 * 0 = 0; omega
  -- the weights' block is the whole matrix, and the result's block spans all 32 features
  have hw : ∀ k : Fin 32, iblk1 V c 4 t (ix2 k q) = V c main_arg5 (ix2 k ((((cfg1.win 5).blk t).view.emb (ix2 p q)) 1)) := by
    intro k
    show V c main_arg5 (((cfg1.win 4).blk t).view.emb (ix2 k q)) = _
    refine congrArg _ (funext fun a => Fin.ext ?_)
    match a with
    | ⟨0, _⟩ => show win1_4.index t (0 : Fin 2) * 32 + 1 * k.val = k.val; omega
    | ⟨1, _⟩ => show win1_4.index t (1 : Fin 2) * 32 + 1 * q.val = win1_5.index t (1 : Fin 2) * 32 + 1 * q.val; omega
  exact Bodies.middle_of_reads (iblk1 V c 0 t) (iblk1 V c 1 t) (iblk1 V c 2 t) (iblk1 V c 3 t) (iblk1 V c 4 t)
    (V c main_v23) (V c main_v12) (V c main_arg4) (V c main_v11) (V c main_arg5)
    (((cfg1.win 5).blk t).view.emb (ix2 p q)) p q ha hd hb hs hw

/-- A node row is in point `t`'s block when each coordinate is in the block's range on its axis. -/
theorem middle_mem (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v24).slice (win1_5.rect t)).set ↔ _
  rw [View.set_slice_whole, Rect.mem_set_unit]
  exact Iff.rfl

/-- Every entry of the result array is in some point's block: row r in block r / 5000. -/
theorem middle_cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := middle_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [middle_mem]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- After the second launch its result array is `clippedScaledProduct` of the arrays it found. -/
theorem middle_final (c : Dev nD) :
    (dat1 V c).arrAt 5 cfg1.N = clippedScaledProduct (V c main_v23) (V c main_v12) (V c main_arg4) (V c main_v11) (V c main_arg5) :=
  (dat1 V c).arrAt_eq_of_cover 5 _ (fun t _ => middle_block V c t) middle_cover

end Cert.KernelIdeal.Arrays

end
-- ==== Proof.ClosingArray.lean ====
/-
  The closing step's array: what the third launch leaves in its result array.

  The launch walks 20 grid points; point t works on node rows 5000·t … 5000·t + 4999: it reads those rows of the
  summed-feature array and of the norm column, the whole bias (one number per feature, the same at every point), and
  writes those rows of the result. Every node row lies in exactly one such block (row r in block r / 5000), and by
  the body's entry-by-entry description the block written at point t is the matching block of `scaledPlusBias` of the
  three whole arrays. So after the launch the result array IS `scaledPlusBias` of the arrays the launch found.
-/
import proofs.«145511_j29506425324286_1_alg».proof.Proof.Gen.KernelIdeal.Frame
import proofs.«145511_j29506425324286_1_alg».proof.Proof.Bodies
import proofs.«145511_j29506425324286_1_alg».proof.Proof.OpeningArray
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

/-- The origin of a one-axis array. -/
private theorem zeros1 : (![0] : Fin 1 → Nat) = fun _ => 0 := funext fun a => by fin_cases a; rfl

/-- Where each window's block sits at point `t`: the row blocks at block-row `t`, the bias at the origin. -/
theorem closing_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Every block-row below 20 is some point's. -/
theorem closing_onto : ∀ q0 : Fin 20, ∃ t : Fin cfg2.N, win2_3.index t = ![q0.val, 0] :=
  (by decide +kernel : ∀ q0 : Fin 20, ∃ t : Fin grid2.N, win2_3.index t = ![q0.val, 0])

/-- What point `t` writes back is block `t` of `scaledPlusBias` of the arrays the launch found. -/
theorem closing_block (c : Dev nD) (t : Fin cfg2.N) :
    (dat2 V c).flushed 3 t = ((cfg2.win 3).blk t).view.read (Elt Ideal)
      (scaledPlusBias (V c main_v34) (V c main_v12) (V c main_arg6)) := by
  show (cfg2.win 3).cut (grid2.coords t) ((dat2 V c).after 3 t) = _
  rw [after2_3]
  unfold out2_3
  rw [View.canon_unit_zero zeros2]
  simp only [View.ld_unit_zero (S := S5000x32) zeros2, View.ld_unit_zero (S := S5000x1) zeros2, View.ld_unit_zero (S := S32) zeros1]
  obtain ⟨e0, e1, e2, e3, e4, e5, e6⟩ := closing_maps t
  funext j
  obtain ⟨p, q, rfl⟩ : ∃ (p : Fin 5000) (q : Fin 32), j = ix2 p q := ⟨j 0, j 1, eq_ix2 j⟩
  show k2_pay1 (iblk2 V c 0 t) (iblk2 V c 1 t) (iblk2 V c 2 t) (ix2 p q)
    = scaledPlusBias (V c main_v34) (V c main_v12) (V c main_arg6) (((cfg2.win 3).blk t).view.emb (ix2 p q))
  -- the summed rows' block and the result's block sit at the same place
  have ha : iblk2 V c 0 t (ix2 p q) = V c main_v34 (((cfg2.win 3).blk t).view.emb (ix2 p q)) := by
    show V c main_v34 (((cfg2.win 0).blk t).view.emb (ix2 p q)) = _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 32 + 1 * q.val = win2_3.index t (1 : Fin 2) * 32 + 1 * q.val; omega
  -- the norm column's block holds the same node rows
  have hd : iblk2 V c 1 t (ix2 p (0 : Fin 1)) = V c main_v12 (ix2 ((((cfg2.win 3).blk t).view.emb (ix2 p q)) 0) (0 : Fin 1)) := by
    show V c main_v12 (((cfg2.win 1).blk t).view.emb (ix2 p (0 : Fin 1))) = _
    refine congrArg _ (funext fun a => Fin.ext ?_)
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  -- the bias's block is the whole bias, and the result's block spans all 32 features
  have hb : iblk2 V c 2 t (ix1 q) = V c main_arg6 (ix1 ((((cfg2.win 3).blk t).view.emb (ix2 p q)) 1)) := by
    show V c main_arg6 (((cfg2.win 2).blk t).view.emb (ix1 q)) = _
    refine congrArg _ (funext fun a => Fin.ext ?_)
    match a with
    | ⟨0, _⟩ => show win2_2.index t (0 : Fin 1) * 32 + 1 * q.val = win2_3.index t (1 : Fin 2) * 32 + 1 * q.val; omega
  exact Bodies.closing_of_reads (iblk2 V c 0 t) (iblk2 V c 1 t) (iblk2 V c 2 t) (V c main_v34) (V c main_v12) (V c main_arg6)
    (((cfg2.win 3).blk t).view.emb (ix2 p q)) p q ha hd hb

/-- A node row is in point `t`'s block when each coordinate is in the block's range on its axis. -/
theorem closing_mem (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v35).slice (win2_3.rect t)).set ↔ _
  rw [View.set_slice_whole, Rect.mem_set_unit]
  exact Iff.rfl

/-- Every entry of the result array is in some point's block: row r in block r / 5000. -/
theorem closing_cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  obtain ⟨t, ht⟩ := closing_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [closing_mem]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- After the third launch its result array is `scaledPlusBias` of the arrays it found. -/
theorem closing_final (c : Dev nD) :
    (dat2 V c).arrAt 3 cfg2.N = scaledPlusBias (V c main_v34) (V c main_v12) (V c main_arg6) :=
  (dat2 V c).arrAt_eq_of_cover 3 _ (fun t _ => closing_block V c t) closing_cover

end Cert.KernelIdeal.Arrays

end
-- ==== Proof.Boundaries.lean ====
/-
  The idealized kernel's result, boundary by boundary.

  Between the program's start and its end the buffer contents pass through ten boundaries (a stretch of host
  operations or a launch between consecutive ones). The seven argument arrays are never written, so they read the
  same at every boundary; the two norm columns are computed once, before the first launch, and never written again.
  The three launches leave `scaledProduct`, `clippedScaledProduct` and `scaledPlusBias` of the arrays they find,
  and the two stretches between them compute the sum along the edges. Composing these readings, the result buffer at
  the last boundary holds `twoLayers` of the argument arrays.
-/
import proofs.«145511_j29506425324286_1_alg».proof.Proof.Gen.KernelIdeal.Frame
import proofs.«145511_j29506425324286_1_alg».proof.Proof.OpeningArray
import proofs.«145511_j29506425324286_1_alg».proof.Proof.MiddleArray
import proofs.«145511_j29506425324286_1_alg».proof.Proof.ClosingArray
import Idealize.ShloMosaic.Lib.StableHlo.Run

set_option maxRecDepth 16384

noncomputable section

namespace Cert.KernelIdeal.KerValue

open Cert.KernelIdeal Cert.KernelIdeal.Gen Cert.KernelIdeal.Arrays Idealize.ShloMosaic Idealize.ShloMosaic.TcCoe Idealize.SL.Sem
open Idealize.ShloMosaic.StableHlo
open Idealize.ShloMosaic.ValueIdx Cert.GraphConv

/-- A node's norm, as a column: one over the square root of the number of edges whose end (in the list `ends`) is
    the node, that number taken as at least one. -/
def degreeNorm (ends : IVec S1600000 32) : FVec Ideal S100000x1 .f32 :=
  broadcastInDim S100000x1 ![0] bcast_S100000_S100000x1_0 (Host.rsqrt (F := Ideal) (maximumf (F := Ideal) (broadcastInDim S100000 ![] bcast_S_S100000 (id (constant (F := Ideal) S_ .f32 0x3F800000#32))) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 ends) (broadcastInDim S1600000 ![] bcast_S_S1600000 (constant (F := Ideal) S_ .f32 0x3F800000#32)))))

/-- The sum along the edges: the row of `h` at each edge's source (a negative source counted from the end) is
    added into the row of the result at the edge's destination. -/
def edgeSum (h : FVec Ideal S100000x32 .f32) (src dst : IVec S1600000 32) :
    FVec Ideal S100000x32 .f32 :=
  Host.scatterAdd (F := Ideal) scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 dst) (Host.gather gather_S100000x32_S1600000x1_S1600000x32_1_0_n_n_0_1_132 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- Two layers: scale by the source norms and multiply by the weights, sum along the edges, scale by the destination
    norms and add the bias; clip at zero between the layers. -/
def twoLayers (x : FVec Ideal S100000x32 .f32) (src dst : IVec S1600000 32)
    (W1 : FVec Ideal S32x32 .f32) (b1 : FVec Ideal S32 .f32)
    (W2 : FVec Ideal S32x32 .f32) (b2 : FVec Ideal S32 .f32) :
    FVec Ideal S100000x32 .f32 :=
  scaledPlusBias (edgeSum (clippedScaledProduct (edgeSum (scaledProduct x (degreeNorm src) W1) src dst) (degreeNorm dst) b1 (degreeNorm src) W2) src dst) (degreeNorm dst) b2

/-! ## Typed references

The clipping of the degrees at one is a small function called twice; inside it a buffer is named together with the
type of the value it holds, and contents pass between the two spellings of that type by a transport that is the
identity. -/

theorem ofBuf_toBuf {T : BufTy} (x : TRef sig T) (v : T.Contents (Elt Ideal)) : x.ofBuf (Val := Elt Ideal) (x.toBuf v) = v := by
  obtain ⟨r, rfl, _, _⟩ := x; rfl
theorem ofBuf_cst_2 (h1 h2 h3) (v : (⟨S_, .f32⟩ : BufTy).Contents (Elt Ideal)) : (TRef.of (T := ⟨S_, .f32⟩) main_cst_2 h1 h2 h3).ofBuf (Val := Elt Ideal) v = v := rfl
theorem ofBuf_cst_3 (h1 h2 h3) (v : (⟨S_, .f32⟩ : BufTy).Contents (Elt Ideal)) : (TRef.of (T := ⟨S_, .f32⟩) main_cst_3 h1 h2 h3).ofBuf (Val := Elt Ideal) v = v := rfl
theorem ofBuf_v3 (h1 h2 h3) (v : (⟨S100000, .f32⟩ : BufTy).Contents (Elt Ideal)) : (TRef.of (T := ⟨S100000, .f32⟩) main_v3 h1 h2 h3).ofBuf (Val := Elt Ideal) v = v := rfl
theorem ofBuf_v6 (h1 h2 h3) (v : (⟨S100000, .f32⟩ : BufTy).Contents (Elt Ideal)) : (TRef.of (T := ⟨S100000, .f32⟩) main_v6 h1 h2 h3).ofBuf (Val := Elt Ideal) v = v := rfl
theorem toBuf_v7 (h1 h2 h3) (v : (⟨S100000, .f32⟩ : BufTy).Contents (Elt Ideal)) : (TRef.of (T := ⟨S100000, .f32⟩) main_v7 h1 h2 h3).toBuf (Val := Elt Ideal) v = v := rfl
theorem toBuf_v9 (h1 h2 h3) (v : (⟨S100000, .f32⟩ : BufTy).Contents (Elt Ideal)) : (TRef.of (T := ⟨S100000, .f32⟩) main_v9 h1 h2 h3).toBuf (Val := Elt Ideal) v = v := rfl

variable (m : (ℓ : Loc nD τ sig) → Buf (Elt Ideal) ℓ) (ρ : Dev nD → PrngReg) (c : Dev nD)

/-- What the buffers that no launch and no later stretch changes hold at a boundary `W`: the seven argument arrays as
    at the start, the two norm columns. -/
structure Settled (W : Valuation τ sig (Elt Ideal)) : Prop where
  arg0 : W (Proc.devRef .tc main_arg0) = m ((c.tc : Thread nD τ).loc main_arg0)
  arg1 : W (Proc.devRef .tc main_arg1) = m ((c.tc : Thread nD τ).loc main_arg1)
  arg2 : W (Proc.devRef .tc main_arg2) = m ((c.tc : Thread nD τ).loc main_arg2)
  arg3 : W (Proc.devRef .tc main_arg3) = m ((c.tc : Thread nD τ).loc main_arg3)
  arg4 : W (Proc.devRef .tc main_arg4) = m ((c.tc : Thread nD τ).loc main_arg4)
  arg5 : W (Proc.devRef .tc main_arg5) = m ((c.tc : Thread nD τ).loc main_arg5)
  arg6 : W (Proc.devRef .tc main_arg6) = m ((c.tc : Thread nD τ).loc main_arg6)
  v11 : W (Proc.devRef .tc main_v11) = degreeNorm (m ((c.tc : Thread nD τ).loc main_arg1))
  v12 : W (Proc.devRef .tc main_v12) = degreeNorm (m ((c.tc : Thread nD τ).loc main_arg2))

/-! ## Before the first launch: the norms are computed, nothing else is read later -/

/-- At the first launch's entry. -/
theorem settled5 : Settled m c (W5 m ρ c) where
  arg0 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  arg1 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  arg2 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  arg3 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  arg4 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  arg5 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  arg6 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  v11 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl
  v12 := by
    dsimp only [W5, W4, W3, W2, W1, hostOps0_4, hostOps0_3, hostOps0_2, hostOps0_1, hostOps0]
    after_results_simp
    try simp only [ofBuf_toBuf, ofBuf_cst_2, ofBuf_cst_3, ofBuf_v3, ofBuf_v6, toBuf_v7, toBuf_v9]
    all_goals rfl

/-- At launch 0's exit: its input arrays are as entered, every other buffer untouched. -/
theorem settled6 : Settled m c (W6 m ρ c) where
  arg0 := (W6_arr m ρ c 0).trans (((dat0 (V5 m ρ) c).arrAt_in 0 rfl _).trans ((A_eq0 (V5 m ρ) c 0).trans (settled5 m ρ c).arg0))
  arg1 := (W6_of_ne m ρ c main_arg1 (by decide)).trans (settled5 m ρ c).arg1
  arg2 := (W6_of_ne m ρ c main_arg2 (by decide)).trans (settled5 m ρ c).arg2
  arg3 := (W6_arr m ρ c 2).trans (((dat0 (V5 m ρ) c).arrAt_in 2 rfl _).trans ((A_eq0 (V5 m ρ) c 2).trans (settled5 m ρ c).arg3))
  arg4 := (W6_of_ne m ρ c main_arg4 (by decide)).trans (settled5 m ρ c).arg4
  arg5 := (W6_of_ne m ρ c main_arg5 (by decide)).trans (settled5 m ρ c).arg5
  arg6 := (W6_of_ne m ρ c main_arg6 (by decide)).trans (settled5 m ρ c).arg6
  v11 := (W6_arr m ρ c 1).trans (((dat0 (V5 m ρ) c).arrAt_in 1 rfl _).trans ((A_eq0 (V5 m ρ) c 1).trans (settled5 m ρ c).v11))
  v12 := (W6_of_ne m ρ c main_v12 (by decide)).trans (settled5 m ρ c).v12

/-- The first launch leaves the opening step of layer one. -/
theorem opening_result : W6 m ρ c (Proc.devRef .tc main_v13)
    = scaledProduct (m ((c.tc : Thread nD τ).loc main_arg0)) (degreeNorm (m ((c.tc : Thread nD τ).loc main_arg1))) (m ((c.tc : Thread nD τ).loc main_arg3)) := by
  rw [W6_arr m ρ c 3, opening_final (V5 m ρ) c]
  show scaledProduct (W5 m ρ c (Proc.devRef .tc main_arg0)) (W5 m ρ c (Proc.devRef .tc main_v11)) (W5 m ρ c (Proc.devRef .tc main_arg3)) = _
  rw [(settled5 m ρ c).arg0, (settled5 m ρ c).v11, (settled5 m ρ c).arg3]

/-- After the stretch of host operations that sums along the edges: it writes none of these. -/
theorem settled7 : Settled m c (W7 m ρ c) where
  arg0 := (show W7 m ρ c (Proc.devRef .tc main_arg0) = W6 m ρ c (Proc.devRef .tc main_arg0) by
    dsimp only [W7, hostOps1]
    after_results_simp <;> rfl).trans (settled6 m ρ c).arg0
  arg1 := (show W7 m ρ c (Proc.devRef .tc main_arg1) = W6 m ρ c (Proc.devRef .tc main_arg1) by
    dsimp only [W7, hostOps1]
    after_results_simp <;> rfl).trans (settled6 m ρ c).arg1
  arg2 := (show W7 m ρ c (Proc.devRef .tc main_arg2) = W6 m ρ c (Proc.devRef .tc main_arg2) by
    dsimp only [W7, hostOps1]
    after_results_simp <;> rfl).trans (settled6 m ρ c).arg2
  arg3 := (show W7 m ρ c (Proc.devRef .tc main_arg3) = W6 m ρ c (Proc.devRef .tc main_arg3) by
    dsimp only [W7, hostOps1]
    after_results_simp <;> rfl).trans (settled6 m ρ c).arg3
  arg4 := (show W7 m ρ c (Proc.devRef .tc main_arg4) = W6 m ρ c (Proc.devRef .tc main_arg4) by
    dsimp only [W7, hostOps1]
    after_results_simp <;> rfl).trans (settled6 m ρ c).arg4
  arg5 := (show W7 m ρ c (Proc.devRef .tc main_arg5) = W6 m ρ c (Proc.devRef .tc main_arg5) by
    dsimp only [W7, hostOps1]
    after_results_simp <;> rfl).trans (settled6 m ρ c).arg5
  arg6 := (show W7 m ρ c (Proc.devRef .tc main_arg6) = W6 m ρ c (Proc.devRef .tc main_arg6) by
    dsimp only [W7, hostOps1]
    after_results_simp <;> rfl).trans (settled6 m ρ c).arg6
  v11 := (show W7 m ρ c (Proc.devRef .tc main_v11) = W6 m ρ c (Proc.devRef .tc main_v11) by
    dsimp only [W7, hostOps1]
    after_results_simp <;> rfl).trans (settled6 m ρ c).v11
  v12 := (show W7 m ρ c (Proc.devRef .tc main_v12) = W6 m ρ c (Proc.devRef .tc main_v12) by
    dsimp only [W7, hostOps1]
    after_results_simp <;> rfl).trans (settled6 m ρ c).v12

/-- The stretch after the first launch sums its result along the edges. -/
theorem first_sum : W7 m ρ c (Proc.devRef .tc main_v23)
    = edgeSum (scaledProduct (m ((c.tc : Thread nD τ).loc main_arg0)) (degreeNorm (m ((c.tc : Thread nD τ).loc main_arg1))) (m ((c.tc : Thread nD τ).loc main_arg3))) (m ((c.tc : Thread nD τ).loc main_arg1)) (m ((c.tc : Thread nD τ).loc main_arg2)) := by
  rw [← opening_result m ρ c, ← (settled6 m ρ c).arg1, ← (settled6 m ρ c).arg2]
  dsimp only [W7, hostOps1]
  after_results_simp <;> rfl

/-- At launch 1's exit: its input arrays are as entered, every other buffer untouched. -/
theorem settled8 : Settled m c (W8 m ρ c) where
  arg0 := (W8_of_ne m ρ c main_arg0 (by decide)).trans (settled7 m ρ c).arg0
  arg1 := (W8_of_ne m ρ c main_arg1 (by decide)).trans (settled7 m ρ c).arg1
  arg2 := (W8_of_ne m ρ c main_arg2 (by decide)).trans (settled7 m ρ c).arg2
  arg3 := (W8_of_ne m ρ c main_arg3 (by decide)).trans (settled7 m ρ c).arg3
  arg4 := (W8_arr m ρ c 2).trans (((dat1 (V7 m ρ) c).arrAt_in 2 rfl _).trans ((A_eq1 (V7 m ρ) c 2).trans (settled7 m ρ c).arg4))
  arg5 := (W8_arr m ρ c 4).trans (((dat1 (V7 m ρ) c).arrAt_in 4 rfl _).trans ((A_eq1 (V7 m ρ) c 4).trans (settled7 m ρ c).arg5))
  arg6 := (W8_of_ne m ρ c main_arg6 (by decide)).trans (settled7 m ρ c).arg6
  v11 := (W8_arr m ρ c 3).trans (((dat1 (V7 m ρ) c).arrAt_in 3 rfl _).trans ((A_eq1 (V7 m ρ) c 3).trans (settled7 m ρ c).v11))
  v12 := (W8_arr m ρ c 1).trans (((dat1 (V7 m ρ) c).arrAt_in 1 rfl _).trans ((A_eq1 (V7 m ρ) c 1).trans (settled7 m ρ c).v12))

/-- The second launch leaves layer one's closing step, clipped, followed by layer two's opening step. -/
theorem middle_result : W8 m ρ c (Proc.devRef .tc main_v24)
    = clippedScaledProduct (edgeSum (scaledProduct (m ((c.tc : Thread nD τ).loc main_arg0)) (degreeNorm (m ((c.tc : Thread nD τ).loc main_arg1))) (m ((c.tc : Thread nD τ).loc main_arg3))) (m ((c.tc : Thread nD τ).loc main_arg1)) (m ((c.tc : Thread nD τ).loc main_arg2)))
        (degreeNorm (m ((c.tc : Thread nD τ).loc main_arg2))) (m ((c.tc : Thread nD τ).loc main_arg4)) (degreeNorm (m ((c.tc : Thread nD τ).loc main_arg1))) (m ((c.tc : Thread nD τ).loc main_arg5)) := by
  rw [W8_arr m ρ c 5, middle_final (V7 m ρ) c]
  show clippedScaledProduct (W7 m ρ c (Proc.devRef .tc main_v23)) (W7 m ρ c (Proc.devRef .tc main_v12)) (W7 m ρ c (Proc.devRef .tc main_arg4)) (W7 m ρ c (Proc.devRef .tc main_v11)) (W7 m ρ c (Proc.devRef .tc main_arg5)) = _
  rw [first_sum m ρ c, (settled7 m ρ c).v12, (settled7 m ρ c).arg4, (settled7 m ρ c).v11, (settled7 m ρ c).arg5]

/-- After the stretch of host operations that sums along the edges: it writes none of these. -/
theorem settled9 : Settled m c (W9 m ρ c) where
  arg0 := (show W9 m ρ c (Proc.devRef .tc main_arg0) = W8 m ρ c (Proc.devRef .tc main_arg0) by
    dsimp only [W9, hostOps2]
    after_results_simp <;> rfl).trans (settled8 m ρ c).arg0
  arg1 := (show W9 m ρ c (Proc.devRef .tc main_arg1) = W8 m ρ c (Proc.devRef .tc main_arg1) by
    dsimp only [W9, hostOps2]
    after_results_simp <;> rfl).trans (settled8 m ρ c).arg1
  arg2 := (show W9 m ρ c (Proc.devRef .tc main_arg2) = W8 m ρ c (Proc.devRef .tc main_arg2) by
    dsimp only [W9, hostOps2]
    after_results_simp <;> rfl).trans (settled8 m ρ c).arg2
  arg3 := (show W9 m ρ c (Proc.devRef .tc main_arg3) = W8 m ρ c (Proc.devRef .tc main_arg3) by
    dsimp only [W9, hostOps2]
    after_results_simp <;> rfl).trans (settled8 m ρ c).arg3
  arg4 := (show W9 m ρ c (Proc.devRef .tc main_arg4) = W8 m ρ c (Proc.devRef .tc main_arg4) by
    dsimp only [W9, hostOps2]
    after_results_simp <;> rfl).trans (settled8 m ρ c).arg4
  arg5 := (show W9 m ρ c (Proc.devRef .tc main_arg5) = W8 m ρ c (Proc.devRef .tc main_arg5) by
    dsimp only [W9, hostOps2]
    after_results_simp <;> rfl).trans (settled8 m ρ c).arg5
  arg6 := (show W9 m ρ c (Proc.devRef .tc main_arg6) = W8 m ρ c (Proc.devRef .tc main_arg6) by
    dsimp only [W9, hostOps2]
    after_results_simp <;> rfl).trans (settled8 m ρ c).arg6
  v11 := (show W9 m ρ c (Proc.devRef .tc main_v11) = W8 m ρ c (Proc.devRef .tc main_v11) by
    dsimp only [W9, hostOps2]
    after_results_simp <;> rfl).trans (settled8 m ρ c).v11
  v12 := (show W9 m ρ c (Proc.devRef .tc main_v12) = W8 m ρ c (Proc.devRef .tc main_v12) by
    dsimp only [W9, hostOps2]
    after_results_simp <;> rfl).trans (settled8 m ρ c).v12

/-- The stretch after the second launch sums its result along the edges. -/
theorem second_sum : W9 m ρ c (Proc.devRef .tc main_v34)
    = edgeSum (clippedScaledProduct (edgeSum (scaledProduct (m ((c.tc : Thread nD τ).loc main_arg0)) (degreeNorm (m ((c.tc : Thread nD τ).loc main_arg1))) (m ((c.tc : Thread nD τ).loc main_arg3))) (m ((c.tc : Thread nD τ).loc main_arg1)) (m ((c.tc : Thread nD τ).loc main_arg2)))
        (degreeNorm (m ((c.tc : Thread nD τ).loc main_arg2))) (m ((c.tc : Thread nD τ).loc main_arg4)) (degreeNorm (m ((c.tc : Thread nD τ).loc main_arg1))) (m ((c.tc : Thread nD τ).loc main_arg5))) (m ((c.tc : Thread nD τ).loc main_arg1)) (m ((c.tc : Thread nD τ).loc main_arg2)) := by
  rw [← middle_result m ρ c, ← (settled8 m ρ c).arg1, ← (settled8 m ρ c).arg2]
  dsimp only [W9, hostOps2]
  after_results_simp <;> rfl

/-- THE RESULT: at the last boundary the result buffer holds `twoLayers` of the argument arrays. -/
theorem result_eq : W10 m ρ c (Proc.devRef .tc main_v35)
    = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [W10_arr m ρ c 3, closing_final (V9 m ρ) c]
  show scaledPlusBias (W9 m ρ c (Proc.devRef .tc main_v34)) (W9 m ρ c (Proc.devRef .tc main_v12)) (W9 m ρ c (Proc.devRef .tc main_arg6)) = _
  rw [second_sum m ρ c, (settled9 m ρ c).v12, (settled9 m ρ c).arg6]
  rfl

end Cert.KernelIdeal.KerValue

end
-- ==== Proof.RefValue.lean ====
/-
  What the reference computes, as the three dense steps of two graph-convolution layers joined by the sum along
  the edges.

  The reference's result, written out by its run as one long term of host operations on the argument arrays, is read
  here as `twoLayers`: the node norms `degreeNorm` of the two edge-end lists, the sum along the edges `edgeSum`
  (a gather of the source rows followed by a scatter-add into the destination rows; neither is opened), and between
  them the three dense steps of Spec.lean. Each dense step is one equation between a short composition of host
  operations (a broadcast of the norm column over the 32 features, a product, a matrix product; a broadcast of the bias
  over the rows, a sum, a maximum with zero) and its entry-by-entry description.
-/
import proofs.«145511_j29506425324286_1_alg».proof.Proof.Gen.ReferenceIdeal.Run
import proofs.«145511_j29506425324286_1_alg».proof.Proof.Spec
import proofs.«145511_j29506425324286_1_alg».proof.Proof.LibMatmulPlain
import proofs.«145511_j29506425324286_1_alg».proof.Proof.LibKeepdims

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.GraphConv

/-- A node's norm, as a column: one over the square root of the number of edges whose end (in the list `ends`) is
    the node, that number taken as at least one. -/
def degreeNorm (ends : IVec S1600000 32) : FVec Ideal S100000x1 .f32 :=
  broadcastInDim S100000x1 ![0] bcast_S100000_S100000x1_0 (Host.rsqrt (F := Ideal) (maximumf (F := Ideal) (broadcastInDim S100000 ![] bcast_S_S100000 (id (constant (F := Ideal) S_ .f32 0x3F800000#32))) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 ends) (broadcastInDim S1600000 ![] bcast_S_S1600000 (constant (F := Ideal) S_ .f32 0x3F800000#32)))))

/-- The sum along the edges: the row of `h` at each edge's source (a negative source counted from the end) is
    added into the row of the result at the edge's destination. -/
def edgeSum (h : FVec Ideal S100000x32 .f32) (src dst : IVec S1600000 32) :
    FVec Ideal S100000x32 .f32 :=
  Host.scatterAdd (F := Ideal) scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 dst) (Host.gather gather_S100000x32_S1600000x1_S1600000x32_1_0_n_n_0_1_132 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- Two layers: scale by the source norms and multiply by the weights, sum along the edges, scale by the destination
    norms and add the bias; clip at zero between the layers. -/
def twoLayers (x : FVec Ideal S100000x32 .f32) (src dst : IVec S1600000 32)
    (W1 : FVec Ideal S32x32 .f32) (b1 : FVec Ideal S32 .f32)
    (W2 : FVec Ideal S32x32 .f32) (b2 : FVec Ideal S32 .f32) :
    FVec Ideal S100000x32 .f32 :=
  scaledPlusBias (edgeSum (clippedScaledProduct (edgeSum (scaledProduct x (degreeNorm src) W1) src dst) (degreeNorm dst) b1 (degreeNorm src) W2) src dst) (degreeNorm dst) b2

/-- A layer's opening step as host operations: the norm column spread over the features, the product with the rows,
    the matrix product with the weights. -/
theorem opening_eq (x : FVec Ideal S100000x32 .f32) (s : FVec Ideal S100000x1 .f32)
    (W : FVec Ideal S32x32 .f32) :
    Host.dotGeneral (F := Ideal) dot_S100000x32_S32x32_S100000x32_1_0_0_1_n_n none (mulf (F := Ideal) x (broadcastInDim S100000x32 ![0, 1] bcast_S100000x1_S100000x32_0_1 s)) W
      = scaledProduct x s W := by
  -- At (p, q) the matrix product is the sum over k of the scaled row's entry (p, k) times W (k, q); the spread
  -- column at (p, k) is the column's entry (p, 0).
  funext i
  obtain ⟨p, q, rfl⟩ : ∃ (p : Fin 100000) (q : Fin 32), i = ix2 p q := ⟨i 0, i 1, eq_ix2 i⟩
  refine (Cert.Lib.MatmulPlain.dotGeneral_apply _ none _ _ p q).trans ?_
  refine Finset.sum_congr rfl fun k _ => ?_
  show x (ix2 p k) * broadcastInDim S100000x32 ![0, 1] bcast_S100000x1_S100000x32_0_1 s (ix2 p k) * W (ix2 k q) = _
  rw [Cert.Lib.Keepdims.broadcastInDim_a1_ab_apply]

/-- A layer's closing step as host operations: the norm column spread over the features, the product with the
    summed rows, the bias spread over the rows, the sum. -/
theorem closing_eq (a : FVec Ideal S100000x32 .f32) (d : FVec Ideal S100000x1 .f32)
    (b : FVec Ideal S32 .f32) :
    addf (F := Ideal) (mulf (F := Ideal) a (broadcastInDim S100000x32 ![0, 1] bcast_S100000x1_S100000x32_0_1 d)) (broadcastInDim S100000x32 ![0, 1] bcast_S1x32_S100000x32_0_1 (broadcastInDim S1x32 ![1] bcast_S32_S1x32_1 b))
      = scaledPlusBias a d b := by
  -- At (p, q): the spread column is the column's entry (p, 0); the bias laid as a row and repeated over the rows
  -- is the bias's entry q.
  funext i
  obtain ⟨p, q, rfl⟩ : ∃ (p : Fin 100000) (q : Fin 32), i = ix2 p q := ⟨i 0, i 1, eq_ix2 i⟩
  show a (ix2 p q) * broadcastInDim S100000x32 ![0, 1] bcast_S100000x1_S100000x32_0_1 d (ix2 p q)
      + broadcastInDim S100000x32 ![0, 1] bcast_S1x32_S100000x32_0_1 (broadcastInDim S1x32 ![1] bcast_S32_S1x32_1 b) (ix2 p q) = _
  rw [Cert.Lib.Keepdims.broadcastInDim_a1_ab_apply, Cert.Lib.Keepdims.broadcastInDim_1b_ab_apply,
    Cert.Lib.Keepdims.broadcastInDim_b_1b_apply]
  rfl

/-- The first layer's closing step, the clipping at zero and the second layer's opening step, as host operations. -/
theorem middle_eq (a : FVec Ideal S100000x32 .f32) (d : FVec Ideal S100000x1 .f32)
    (b : FVec Ideal S32 .f32) (s : FVec Ideal S100000x1 .f32)
    (W : FVec Ideal S32x32 .f32) :
    Host.dotGeneral (F := Ideal) dot_S100000x32_S32x32_S100000x32_1_0_0_1_n_n none
        (mulf (F := Ideal) (maximumf (F := Ideal) (addf (F := Ideal) (mulf (F := Ideal) a (broadcastInDim S100000x32 ![0, 1] bcast_S100000x1_S100000x32_0_1 d)) (broadcastInDim S100000x32 ![0, 1] bcast_S1x32_S100000x32_0_1 (broadcastInDim S1x32 ![1] bcast_S32_S1x32_1 b)))
            (broadcastInDim S100000x32 ![] bcast_S_S100000x32 (constant (F := Ideal) S_ .f32 0x00000000#32)))
          (broadcastInDim S100000x32 ![0, 1] bcast_S100000x1_S100000x32_0_1 s)) W
      = clippedScaledProduct a d b s W := by
  -- The matrix product at (p, q) is a sum over k; its k-th term reads the clipped closing step at (p, k), where the
  -- two spread columns are their entries (p, 0), the repeated bias is its entry k, and the spread zero is the zero.
  funext i
  obtain ⟨p, q, rfl⟩ : ∃ (p : Fin 100000) (q : Fin 32), i = ix2 p q := ⟨i 0, i 1, eq_ix2 i⟩
  refine (Cert.Lib.MatmulPlain.dotGeneral_apply _ none _ _ p q).trans ?_
  refine Finset.sum_congr rfl fun k _ => ?_
  show max (a (ix2 p k) * broadcastInDim S100000x32 ![0, 1] bcast_S100000x1_S100000x32_0_1 d (ix2 p k)
        + broadcastInDim S100000x32 ![0, 1] bcast_S1x32_S100000x32_0_1 (broadcastInDim S1x32 ![1] bcast_S32_S1x32_1 b) (ix2 p k))
      (broadcastInDim S100000x32 ![] bcast_S_S100000x32 (constant (F := Ideal) S_ .f32 0x00000000#32) (ix2 p k))
      * broadcastInDim S100000x32 ![0, 1] bcast_S100000x1_S100000x32_0_1 s (ix2 p k) * W (ix2 k q) = _
  rw [Cert.Lib.Keepdims.broadcastInDim_a1_ab_apply, Cert.Lib.Keepdims.broadcastInDim_a1_ab_apply,
    Cert.Lib.Keepdims.broadcastInDim_1b_ab_apply, Cert.Lib.Keepdims.broadcastInDim_b_1b_apply,
    Cert.Lib.Keepdims.broadcastInDim_scalar_apply]
  rfl

/-- The reference's result is `twoLayers` of its arguments. -/
theorem result_eq (m : (ℓ : Loc nD τ sig) → Buf (Elt Ideal) ℓ) (c : Dev nD) :
    Value.res_main_v62 (F := Ideal) m c
      = twoLayers (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  -- The run's term is the second layer's closing step around the edge sum of the middle step around the edge sum of
  -- the first layer's opening step; folding the three steps, outermost first, leaves the norms and the edge sums
  -- written out as in their definitions.
  unfold Value.res_main_v62 twoLayers
  rw [closing_eq, middle_eq, opening_eq]
  rfl

end Cert.ReferenceIdeal.RefValue

end
-- ==== Proof.lean ====
/-
  A two-layer graph convolution on 100000 nodes, 32 features and 1600000 edges: the tiled kernel against its plain
  reference, on extended reals.

  Both programs compute, per layer, (1) each node's feature row scaled by the node's source norm and multiplied by a
  32 × 32 weight matrix, (2) the sum of these rows along the edges, (3) each summed row scaled by the node's
  destination norm plus a bias; between the layers negative entries are clipped to zero. The norms and the sum along
  the edges are the same host operations in both programs. They differ in the dense steps: the reference applies
  them to whole arrays, the kernel to blocks of 5000 node rows in three launches (the first layer's opening step;
  its closing step, the clipping and the second layer's opening step fused; the second layer's closing step), with
  the products formed by the matrix unit from narrowed operands. On extended reals a change of float format is the
  identity and the matrix unit's product is the plain sum of 32 products, every node row lies in exactly one block,
  and so each launch leaves exactly the whole-array step (OpeningArray, MiddleArray, ClosingArray over Bodies).
  Boundaries follows the kernel's buffers from the start to the end and finds the result at `twoLayers` of the
  arguments; RefValue reads the reference's result as the same `twoLayers`. No law of arithmetic is needed beyond
  reading both sides entry by entry, so the inputs' finiteness is not used.

  The rewrite ledger of the idealization is empty, so `preserves` is `True`; the frames are the generated ones, the
  reference's being its generated run with the result dropped.
-/
import proofs.«145511_j29506425324286_1_alg».proof.Defs
import proofs.«145511_j29506425324286_1_alg».proof.Proof.Gen.Kernel
import proofs.«145511_j29506425324286_1_alg».proof.Proof.Gen.Kernel.Skeleton
import proofs.«145511_j29506425324286_1_alg».proof.Proof.Gen.Kernel.Launch
import proofs.«145511_j29506425324286_1_alg».proof.Proof.Gen.Kernel.Points
import proofs.«145511_j29506425324286_1_alg».proof.Proof.Gen.Kernel.Frame
import proofs.«145511_j29506425324286_1_alg».proof.Proof.Gen.KernelIdeal
import proofs.«145511_j29506425324286_1_alg».proof.Proof.Gen.KernelIdeal.Skeleton
import proofs.«145511_j29506425324286_1_alg».proof.Proof.Gen.KernelIdeal.Launch
import proofs.«145511_j29506425324286_1_alg».proof.Proof.Gen.KernelIdeal.Points
import proofs.«145511_j29506425324286_1_alg».proof.Proof.Gen.KernelIdeal.Frame
import proofs.«145511_j29506425324286_1_alg».proof.Proof.Gen.ReferenceIdeal
import proofs.«145511_j29506425324286_1_alg».proof.Proof.Gen.ReferenceIdeal.Run
import proofs.«145511_j29506425324286_1_alg».proof.Proof.Gen.Pre_finite_inputs
import proofs.«145511_j29506425324286_1_alg».proof.Proof.NamedRun
import proofs.«145511_j29506425324286_1_alg».proof.Proof.Boundaries
import proofs.«145511_j29506425324286_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs name the same whole-array function: their norms and their sums along the edges are the same
    host operations with the same dimension numbers. -/
theorem twoLayers_eq : Cert.KernelIdeal.KerValue.twoLayers = Cert.ReferenceIdeal.RefValue.twoLayers := rfl

/-- Run from memories that agree on the arguments, the idealized kernel and the idealized reference both end with
    `twoLayers` of the arguments in their result buffers. -/
theorem algebraic : Cert.algebraic_KernelIdeal_ReferenceIdeal := by
  intro m ρ m' ρ' _ hagree
  refine ⟨fun c => Cert.KernelIdeal.KerValue.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KerValue.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2, twoLayers_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
